-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x40 : Shape := ⟨2, ![256, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S256x40 .f32) (main_arg9 : FVec F S40 .f32) (main_v33 : IVec S_ 1) : IVec S_ 1 :=
  let main_v34 : FVec F S256x40 .f32 := Host.absf main_arg8
  let main_cst_12 : FVec F S_ .f32 := constant S_ .f32 0x7F800000#32
  let main_v35 : FVec F S256x40 .f32 := broadcastInDim S256x40 ![] bcast_S_S256x40 main_cst_12
  let main_v36 : IVec S256x40 1 := cmpf .olt main_v34 main_v35
  let main_c_13 : IVec S_ 1 := constantI S_ 1 1#1
  let main_v37 : IVec S_ 1 := (fun x v => Host.reduce IntOp.andi x v reducesTo_S256x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S256x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S256x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x40 : Shape := ⟨2, ![256, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S2000x128 : Shape := ⟨2, ![2000, 128]⟩
abbrev S1x128 : Shape := ⟨2, ![1, 128]⟩
abbrev S128x40 : Shape := ⟨2, ![128, 40]⟩
abbrev S100000x40 : Shape := ⟨2, ![100000, 40]⟩
abbrev S2000x40 : Shape := ⟨2, ![2000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 47
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x40, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000x128, .bf16⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .bf16⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S100000x128, .bf16⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .bf16⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S128x40, .f32⟩
  | .hbm, ⟨45, _⟩ => ⟨S128x40, .f32⟩
  | .hbm, ⟨46, _⟩ => ⟨S100000x40, .f32⟩
  | .local _ .vmem, ⟨0, _⟩ => ⟨S2000x128, .bf16⟩
  | .local _ .vmem, ⟨1, _⟩ => ⟨S2000x128, .bf16⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S2000x128, .bf16⟩
  | .local _ .vmem, ⟨8, _⟩ => ⟨S2000x128, .bf16⟩
  | .local _ .vmem, ⟨9, _⟩ => ⟨S2000x128, .bf16⟩
  | .local _ .vmem, ⟨10, _⟩ => ⟨S2000x128, .bf16⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S128x40, .f32⟩
  | .local _ .vmem, ⟨17, _⟩ => ⟨S128x40, .f32⟩
  | .local _ .vmem, ⟨18, _⟩ => ⟨S40, .f32⟩
  | .local _ .vmem, ⟨19, _⟩ => ⟨S2000x40, .f32⟩
  | .local _ .vmem, ⟨20, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S40 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x40 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  slices_S256x40_S128x40_0_0 : S256x40.Slices ![0, 0] S128x40
  slices_S256x40_S128x40_128_0 : S256x40.Slices ![128, 0] S128x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .bf16 = 32 ∨ (Rect.block (s := S100000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .bf16 = 32 ∨ (Rect.block (s := S100000x128) S2000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .bf16 = 32 ∨ (Rect.block (s := S100000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x40.size a ≤ S128x40.size a
  hwx1_5 : ∀ i : grid1.Coords, EltTy.bits .f32 = 32 ∨ (Rect.block (s := S128x40) S128x40.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x40.size a ≤ S128x40.size a
  hwx1_6 : ∀ i : grid1.Coords, EltTy.bits .f32 = 32 ∨ (Rect.block (s := S128x40) S128x40.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S40.size a ≤ S40.size a
  hwx1_7 : ∀ i : grid1.Coords, EltTy.bits .f32 = 32 ∨ (Rect.block (s := S40) S40.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x40.size a ≤ S100000x40.size a
  hwx1_8 : ∀ i : grid1.Coords, EltTy.bits .f32 = 32 ∨ (Rect.block (s := S100000x40) S2000x40.size (cc1_transform_8 i) (hinb1_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v4) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S128x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S128x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S40.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S2000x40.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x40 : Shape := ⟨2, ![256, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x256 : Shape := ⟨2, ![100000, 256]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x40, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S100000x256, .f32⟩
  | .hbm, ⟨59, _⟩ => ⟨S100000x40, .f32⟩
  | .hbm, ⟨60, _⟩ => ⟨S1x40, .f32⟩
  | .hbm, ⟨61, _⟩ => ⟨S100000x40, .f32⟩
  | .hbm, ⟨62, _⟩ => ⟨S100000x40, .f32⟩
  | .hbm, ⟨63, _⟩ => ⟨S_, .f32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x40, .f32⟩
  | .hbm, ⟨70, _⟩ => ⟨S100000x40, .f32⟩
  | .hbm, ⟨71, _⟩ => ⟨S100000x40, .f32⟩
  | .hbm, ⟨72, _⟩ => ⟨S_, .f32⟩
  | .hbm, ⟨73, _⟩ => ⟨S100000, .f32⟩
  | .hbm, ⟨74, _⟩ => ⟨S100000x1, .f32⟩
  | .hbm, ⟨75, _⟩ => ⟨S100000x1, .f32⟩
  | .hbm, ⟨76, _⟩ => ⟨S100000x40, .f32⟩
  | .hbm, ⟨77, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_cst : Ref sig .tc := ⟨.hbm, 55, rfl⟩
abbrev main_call1_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call2_cst : Ref sig .tc := ⟨.hbm, 63, rfl⟩
abbrev main_call2_v0 : Ref sig .tc := ⟨.hbm, 64, rfl⟩
abbrev main_call2_cst_0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_cst_1 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_v43 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x256_S256x40_S100000x40_1_0_0_1_n_n_wf : DotDims.WF S100000x256 S256x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf

class Facts : Prop extends Facts₀ where

variable [Facts]
-- ==== Proof.KernelRun.lean ====
/-
  The idealized kernel program's run with its result named. Its @main is four segments: the host operations before the first
  region (the neighbour sum of the node rows), the first region (the first convolution, block of rows by block of rows), the
  host operations between the regions (the neighbour sum of the first layer's rows, the two halves of the last weight matrix)
  and the second region (the fused second stage). Every weakly fair execution terminates, nothing faulting, the argument
  arrays as launched, and the result array at what the last region's write-backs leave — the last boundary's contents at that
  array. The launch over the segments is the library's; this statement only keeps one more buffer of the last thread state.
-/
import proofs.«146916_j23699629539722_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the arguments end as launched and the result array holds the last boundary's contents. -/
theorem run_named : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Named

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«146916_j23699629539722_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«146916_j23699629539722_2_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibLogSoftmax.lean ====
/-
  General lemmas: the row-wise log-softmax of a rank-two array over the extended reals, at any sizes, in the spelling a vector
  unit gives it and in the spelling a host program gives it. Both take each row's largest entry as a fold of `max` from −∞
  (the word `0xFF800000`), subtract it, exponentiate, sum along the row from zero, take the logarithm and subtract again:
  `(L − m) − log ∑ exp (L − m)`. The vector unit reduces with lane reductions, recasts the row results `[a]` as a column
  `[a, 1]` and broadcasts it along the rows; the host reduces with one-operand reduces, joins the maximum once more with −∞
  (which changes nothing: a fold of `max` is at least its starting value) and broadcasts in two steps. None mentions a
  program.
-/
import proofs.«146916_j23699629539722_2_alg».proof.Proof.LibIndex
import Idealize.ShloMosaic.PureOps.Reduce

noncomputable section

namespace Cert.LogSoftmaxLib

open Idealize.ShloMosaic Idealize.ShloMosaic.ValueIdx Cert.LayoutLib

/-- The largest entry of row `p` of `L`: the fold of `max` over the row from −∞. -/
def rowMax {a b : ℕ} (L : (⟨2, ![a, b]⟩ : Shape).Idx → EReal) (p : Fin a) : EReal :=
  (Finset.univ : Finset (Fin b)).fold max (Ideal.ofBits .f32 0xFF800000#32) (fun c => L (ix2 p c))

/-- The row-wise log-softmax: `(L − m) − log ∑ exp (L − m)`, `m` the row's largest entry. -/
def logSoftmax {a b : ℕ} (L : (⟨2, ![a, b]⟩ : Shape).Idx → EReal) : (⟨2, ![a, b]⟩ : Shape).Idx → EReal := fun i =>
  (L i - rowMax L (i 0)) - Ideal.log (∑ c : Fin b, Ideal.exp (L (ix2 (n0 := a) (i 0) c) - rowMax L (i 0)))

theorem logSoftmax_apply {a b : ℕ} (L : (⟨2, ![a, b]⟩ : Shape).Idx → EReal) (p : Fin a) (q : Fin b) :
    logSoftmax L (ix2 p q) = (L (ix2 p q) - rowMax L p) - Ideal.log (∑ c : Fin b, Ideal.exp (L (ix2 p c) - rowMax L p)) := rfl

/-- Row `p` of a log-softmax depends only on row `p` of its argument: two arrays, of any heights, that agree on a row of each
    have equal row maxima there … -/
theorem rowMax_row {a a' b : ℕ} (L' : (⟨2, ![a', b]⟩ : Shape).Idx → EReal) (L : (⟨2, ![a, b]⟩ : Shape).Idx → EReal) (p' : Fin a') (p : Fin a)
    (h : ∀ c, L' (ix2 p' c) = L (ix2 p c)) : rowMax L' p' = rowMax L p := by
  unfold rowMax
  rw [show (fun c => L' (ix2 p' c)) = fun c => L (ix2 p c) from funext h]

/-- … and equal log-softmax entries along it. -/
theorem logSoftmax_row {a a' b : ℕ} (L' : (⟨2, ![a', b]⟩ : Shape).Idx → EReal) (L : (⟨2, ![a, b]⟩ : Shape).Idx → EReal) (p' : Fin a') (p : Fin a)
    (h : ∀ c, L' (ix2 p' c) = L (ix2 p c)) (q : Fin b) : logSoftmax L' (ix2 p' q) = logSoftmax L (ix2 p q) := by
  rw [logSoftmax_apply, logSoftmax_apply, rowMax_row L' L p' p h, h q]
  exact congrArg (fun s => L (ix2 p q) - rowMax L p - Ideal.log s) (Finset.sum_congr rfl fun c _ => by rw [h c])

/-- The maximum of a fold's starting value and the fold is the fold. -/
theorem max_init_fold {ι : Type} (s : Finset ι) (v : EReal) (f : ι → EReal) : max v (s.fold max v f) = s.fold max v f :=
  max_eq_right ((Finset.le_fold_max v).mpr (Or.inl le_rfl))

/-- The source index over row `p` with coordinate `k` on the reduced (second) axis is `(p, k)`. -/
theorem lift_row' {a b : ℕ} (h : (⟨2, ![a, b]⟩ : Shape).Reduces [(1 : Fin 2)] ⟨1, ![a]⟩) (p : Fin a) :
    (fun k : Fin b => h.lift (ix1 p) k) = fun k => ix2 p k :=
  funext fun k => lift_row h p k

/-! ## The vector unit's spelling -/

/-- A lane maximum along the rows from −∞, read at row `p`. -/
theorem multiReduction_max_row {a b : ℕ} (L : FVec Ideal ⟨2, ![a, b]⟩ .f32)
    (h : (⟨2, ![a, b]⟩ : Shape).Reduces [(1 : Fin 2)] ⟨1, ![a]⟩) (hφ : FKind.Formats FTy.f32)
    (hacc : (0xFF800000#32 : BitVec 32) = 0xFF800000#32) (p : Fin a) :
    multiReduction .maximumf [(1 : Fin 2)] ⟨1, ![a]⟩ L 0xFF800000#32 h hφ hacc (ix1 p) = rowMax L p := by
  refine (Ideal.multiReduction_maximumf_single L 0xFF800000#32 h hφ hacc (ix1 p)).trans ?_
  unfold rowMax
  exact congrArg (fun f => (Finset.univ : Finset (Fin b)).fold max (Ideal.ofBits .f32 0xFF800000#32) f)
    (funext fun k => congrArg L (lift_row h p k))

/-- A lane sum along the rows from zero, read at row `p`. -/
theorem multiReduction_add_row {a b : ℕ} (v : FVec Ideal ⟨2, ![a, b]⟩ .f32)
    (h : (⟨2, ![a, b]⟩ : Shape).Reduces [(1 : Fin 2)] ⟨1, ![a]⟩) (hφ : FKind.Formats FTy.f32)
    (hacc : (0x00000000#32 : BitVec 32) = 0x00000000#32) (p : Fin a) :
    multiReduction .add [(1 : Fin 2)] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- The shifted rows as the vector unit spells them: the array less its row maxima, recast as a column and broadcast. -/
theorem shifted_vec {a b : ℕ} (L : FVec Ideal ⟨2, ![a, b]⟩ .f32)
    (h : (⟨2, ![a, b]⟩ : Shape).Reduces [(1 : Fin 2)] ⟨1, ![a]⟩) (hφ : FKind.Formats FTy.f32)
    (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩) (p : Fin a) (q : Fin b) :
    subf L (broadcastTo ⟨2, ![a, b]⟩ (shapeCast ⟨2, ![a, 1]⟩
      (multiReduction .maximumf [(1 : Fin 2)] ⟨1, ![a]⟩ L 0xFF800000#32 h hφ hacc) hc) hb) (ix2 p q) = L (ix2 p q) - rowMax L p := by
  rw [subf_apply, broadcastTo_col_apply, shapeCast_col_apply, multiReduction_max_row]

/-- THE VECTOR UNIT'S LOG-SOFTMAX: from the shifted rows `sh` (given entry by entry), their exponentials summed along the rows,
    the logarithm recast as a column, broadcast and subtracted. -/
theorem logSoftmax_vec {a b : ℕ} (L : (⟨2, ![a, b]⟩ : Shape).Idx → EReal) (sh : FVec Ideal ⟨2, ![a, b]⟩ .f32)
    (hsh : ∀ (p : Fin a) (q : Fin b), sh (ix2 p q) = L (ix2 p q) - rowMax L p)
    (h : (⟨2, ![a, b]⟩ : Shape).Reduces [(1 : Fin 2)] ⟨1, ![a]⟩) (hφ : FKind.Formats FTy.f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩) :
    subf sh (broadcastTo ⟨2, ![a, b]⟩ (log (shapeCast ⟨2, ![a, 1]⟩
      (multiReduction .add [(1 : Fin 2)] ⟨1, ![a]⟩ (exp sh) 0x00000000#32 h hφ hacc) hc)) hb) = logSoftmax L := by
  funext i
  obtain ⟨p, q, rfl⟩ : ∃ (p : Fin a) (q : Fin b), i = ix2 p q := ⟨i 0, i 1, eq_ix2 i⟩
  rw [subf_apply, broadcastTo_col_apply]
  show sh (ix2 p q) - Ideal.log (shapeCast ⟨2, ![a, 1]⟩ (multiReduction .add [(1 : Fin 2)] ⟨1, ![a]⟩ (exp sh) 0x00000000#32 h hφ hacc) hc (ix2 p (0 : Fin 1))) = _
  rw [shapeCast_col_apply, multiReduction_add_row, hsh, logSoftmax_apply]
  exact congrArg (fun s => L (ix2 p q) - rowMax L p - Ideal.log s)
    (Finset.sum_congr rfl fun k _ => show Ideal.exp (sh (ix2 p k)) = _ by rw [hsh])

/-! ## The host's spelling -/

/-- The host's maximum along the rows from −∞, joined once more with −∞, read at row `p`. -/
theorem hostMax_row {a b : ℕ} (L : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < (⟨0, ![]⟩ : Shape).numel) (hs : (⟨0, ![]⟩ : Shape).BroadcastsInDim ⟨1, ![a]⟩ (![] : Fin 0 → Fin 1)) (p : Fin a) :
    maximumf (broadcastInDim ⟨1, ![a]⟩ ![] hs (constant (F := Ideal) ⟨0, ![]⟩ .f32 0xFF800000#32))
      (Host.reduce FloatOps.maximumf L (constant (F := Ideal) ⟨0, ![]⟩ .f32 0xFF800000#32) h' hu) (ix1 p) = rowMax L p := by
  rw [maximumf_apply, broadcastInDim_scalar_apply, Host.reduce_eq_fold_single FloatOps.maximumf L _ h' h hu (ix1 p)]
  show max (Ideal.ofBits .f32 0xFF800000#32)
    ((Finset.univ : Finset (Fin b)).fold max (Ideal.ofBits .f32 0xFF800000#32) (L ∘ h.lift (ix1 p))) = rowMax L p
  refine (max_init_fold _ _ _).trans ?_
  unfold rowMax
  exact congrArg (fun f => (Finset.univ : Finset (Fin b)).fold max (Ideal.ofBits .f32 0xFF800000#32) f)
    (funext fun k => congrArg L (lift_row h p k))

/-- The shifted rows as the host spells them. -/
theorem shifted_host {a b : ℕ} (L : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < (⟨0, ![]⟩ : Shape).numel) (hs : (⟨0, ![]⟩ : Shape).BroadcastsInDim ⟨1, ![a]⟩ (![] : Fin 0 → Fin 1))
    (hv : (⟨1, ![a]⟩ : Shape).BroadcastsInDim ⟨2, ![a, 1]⟩ (![0] : Fin 1 → Fin 2))
    (hcol : (⟨2, ![a, 1]⟩ : Shape).BroadcastsInDim ⟨2, ![a, b]⟩ (![0, 1] : Fin 2 → Fin 2)) (p : Fin a) (q : Fin b) :
    subf L (broadcastInDim ⟨2, ![a, b]⟩ ![0, 1] hcol (broadcastInDim ⟨2, ![a, 1]⟩ ![0] hv
      (maximumf (broadcastInDim ⟨1, ![a]⟩ ![] hs (constant (F := Ideal) ⟨0, ![]⟩ .f32 0xFF800000#32))
        (Host.reduce FloatOps.maximumf L (constant (F := Ideal) ⟨0, ![]⟩ .f32 0xFF800000#32) h' hu)))) (ix2 p q)
      = L (ix2 p q) - rowMax L p := by
  rw [subf_apply, broadcastInDim_col_apply, broadcastInDim_vecCol_apply, hostMax_row L h' h hu hs p]

/-- THE HOST'S LOG-SOFTMAX from the shifted rows `sh`. -/
theorem logSoftmax_host {a b : ℕ} (L : (⟨2, ![a, b]⟩ : Shape).Idx → EReal) (sh : FVec Ideal ⟨2, ![a, b]⟩ .f32)
    (hsh : ∀ (p : Fin a) (q : Fin b), sh (ix2 p q) = L (ix2 p q) - rowMax L p)
    (h' : (⟨2, ![a, b]⟩ : Shape).ReducesTo [(1 : Fin 2)] ⟨1, ![a]⟩) (h : (⟨2, ![a, b]⟩ : Shape).Reduces [(1 : Fin 2)] ⟨1, ![a]⟩)
    (hu : 0 < (⟨0, ![]⟩ : Shape).numel)
    (hv : (⟨1, ![a]⟩ : Shape).BroadcastsInDim ⟨2, ![a, 1]⟩ (![0] : Fin 1 → Fin 2))
    (hcol : (⟨2, ![a, 1]⟩ : Shape).BroadcastsInDim ⟨2, ![a, b]⟩ (![0, 1] : Fin 2 → Fin 2)) :
    subf sh (broadcastInDim ⟨2, ![a, b]⟩ ![0, 1] hcol (Host.log (broadcastInDim ⟨2, ![a, 1]⟩ ![0] hv
      (Host.reduceAdd (Host.exp sh) (constant (F := Ideal) ⟨0, ![]⟩ .f32 0x00000000#32) h' hu)))) = logSoftmax L := by
  funext i
  obtain ⟨p, q, rfl⟩ : ∃ (p : Fin a) (q : Fin b), i = ix2 p q := ⟨i 0, i 1, eq_ix2 i⟩
  rw [subf_apply, broadcastInDim_col_apply]
  show sh (ix2 p q) - Ideal.log (broadcastInDim ⟨2, ![a, 1]⟩ ![0] hv
      (Host.reduceAdd (Host.exp sh) (constant (F := Ideal) ⟨0, ![]⟩ .f32 0x00000000#32) h' hu) (ix2 p (0 : Fin 1))) = _
  rw [broadcastInDim_vecCol_apply]
  show sh (ix2 p q) - Ideal.log (Ideal.hostReduceAdd h' (Host.exp sh) (Ideal.ofBits .f32 0x00000000#32) (ix1 p)) = _
  rw [hostReduceAdd_row_apply h' h, Ideal.ofBits_zero_f32, zero_add, hsh, logSoftmax_apply]
  exact congrArg (fun s => L (ix2 p q) - rowMax L p - Ideal.log s)
    (Finset.sum_congr rfl fun k _ => show Ideal.exp (sh (ix2 p k)) = _ by rw [hsh])

end Cert.LogSoftmaxLib

end
-- ==== Proof.NetSpec.lean ====
/-
  A two-layer graph network with sum aggregation on the extended reals, as whole-array functions at any number of rows.

  One convolution takes the aggregated neighbour rows `A` and the node rows `X` to
  `relu (A · Wrel + X · Wroot + b)` (`conv`); the arrangement that adds the bias before the root term
  (`convBiasFirst`) is the same array, because addition on the extended reals is commutative and associative.
  The second stage lays the first layer's rows and the second layer's rows against the two halves of one weight
  matrix, adds a bias (`logits`), and takes the row-wise log-softmax: every entry less its row's largest entry
  (`rowMax`, the fold of `max` from −∞ over the row), less the logarithm of the row's sum of exponentials of those
  differences. Row `p` of every stage depends only on row `p` of the arrays it is applied to, which is what lets a
  result computed on blocks of consecutive rows be read as one function of the whole arrays.
-/
import proofs.«146916_j23699629539722_2_alg».proof.Proof.LibRowBlocks
import proofs.«146916_j23699629539722_2_alg».proof.Proof.LibLogSoftmax

noncomputable section

namespace Cert.NetSpec

open Idealize.ShloMosaic Idealize.ShloMosaic.ValueIdx Cert.LayoutLib Cert.DenseLib Cert.RowBlocks Cert.LogSoftmaxLib

/-- A rank-two array of extended reals. -/
abbrev Mat (M N : ℕ) : Type := (⟨2, ![M, N]⟩ : Shape).Idx → EReal

/-- One graph convolution: `relu ((A · Wrel + X · Wroot) + b)`. -/
def conv {M K N : ℕ} (A X : Mat M K) (Wrel Wroot : Mat K N) (b : Fin N → EReal) : Mat M N :=
  relu (plus (plus (mm A Wrel) (mm X Wroot)) (rows b))

/-- The same convolution with the bias added before the root term: `relu ((A · Wrel + b) + X · Wroot)`. -/
def convBiasFirst {M K N : ℕ} (A X : Mat M K) (Wrel Wroot : Mat K N) (b : Fin N → EReal) : Mat M N :=
  relu (plus (plus (mm A Wrel) (rows b)) (mm X Wroot))

/-- The two arrangements are one array: `(u + b) + v = (u + v) + b` on the extended reals. -/
theorem convBiasFirst_eq {M K N : ℕ} (A X : Mat M K) (Wrel Wroot : Mat K N) (b : Fin N → EReal) :
    convBiasFirst A X Wrel Wroot b = conv A X Wrel Wroot b := by
  funext i
  show max (mm A Wrel i + b (i 1) + mm X Wroot i) 0 = max (mm A Wrel i + mm X Wroot i + b (i 1)) 0
  rw [add_right_comm]

theorem conv_apply {M K N : ℕ} (A X : Mat M K) (Wrel Wroot : Mat K N) (b : Fin N → EReal) (p : Fin M) (q : Fin N) :
    conv A X Wrel Wroot b (ix2 p q) = max (mm A Wrel (ix2 p q) + mm X Wroot (ix2 p q) + b q) 0 := rfl

/-- Row `p` of a convolution depends only on row `p` of the aggregated rows and of the node rows. -/
theorem conv_row {M M' K N : ℕ} (A' X' : Mat M' K) (A X : Mat M K) (Wrel Wroot : Mat K N) (b : Fin N → EReal)
    (p' : Fin M') (p : Fin M) (hA : ∀ k, A' (ix2 p' k) = A (ix2 p k)) (hX : ∀ k, X' (ix2 p' k) = X (ix2 p k)) (q : Fin N) :
    conv A' X' Wrel Wroot b (ix2 p' q) = conv A X Wrel Wroot b (ix2 p q) := by
  rw [conv_apply, conv_apply, mm_row A' A Wrel p' p hA q, mm_row X' X Wroot p' p hX q]

/-- The second stage's scores: `(X1 · W1 + X2 · W2) + b`. -/
def logits {M K N : ℕ} (X1 X2 : Mat M K) (W1 W2 : Mat K N) (b : Fin N → EReal) : Mat M N :=
  plus (plus (mm X1 W1) (mm X2 W2)) (rows b)

theorem logits_apply {M K N : ℕ} (X1 X2 : Mat M K) (W1 W2 : Mat K N) (b : Fin N → EReal) (p : Fin M) (q : Fin N) :
    logits X1 X2 W1 W2 b (ix2 p q) = mm X1 W1 (ix2 p q) + mm X2 W2 (ix2 p q) + b q := rfl

theorem logits_row {M M' K N : ℕ} (X1' X2' : Mat M' K) (X1 X2 : Mat M K) (W1 W2 : Mat K N) (b : Fin N → EReal)
    (p' : Fin M') (p : Fin M) (h1 : ∀ k, X1' (ix2 p' k) = X1 (ix2 p k)) (h2 : ∀ k, X2' (ix2 p' k) = X2 (ix2 p k)) (q : Fin N) :
    logits X1' X2' W1 W2 b (ix2 p' q) = logits X1 X2 W1 W2 b (ix2 p q) := by
  rw [logits_apply, logits_apply, mm_row X1' X1 W1 p' p h1 q, mm_row X2' X2 W2 p' p h2 q]

/-- The fused second stage: the second convolution, the scores against both layers' rows, the log-softmax. -/
def head {M K C : ℕ} (A X : Mat M K) (Wrel Wroot : Mat K K) (b : Fin K → EReal) (W1 W2 : Mat K C) (bl : Fin C → EReal) : Mat M C :=
  logSoftmax (logits X (conv A X Wrel Wroot b) W1 W2 bl)

/-- Row `p` of the fused stage depends only on row `p` of the aggregated rows and of the first layer's rows. -/
theorem head_row {M M' K C : ℕ} (A' X' : Mat M' K) (A X : Mat M K) (Wrel Wroot : Mat K K) (b : Fin K → EReal)
    (W1 W2 : Mat K C) (bl : Fin C → EReal) (p' : Fin M') (p : Fin M)
    (hA : ∀ k, A' (ix2 p' k) = A (ix2 p k)) (hX : ∀ k, X' (ix2 p' k) = X (ix2 p k)) (q : Fin C) :
    head A' X' Wrel Wroot b W1 W2 bl (ix2 p' q) = head A X Wrel Wroot b W1 W2 bl (ix2 p q) :=
  logSoftmax_row _ _ p' p (fun c => logits_row X' _ X _ W1 W2 bl p' p hX (conv_row A' X' A X Wrel Wroot b p' p hA hX) c) q

end Cert.NetSpec

end
-- ==== Proof.Layer1.lean ====
/-
  The first region of the kernel program: the first graph convolution, computed on blocks of 2000 consecutive rows. At a grid
  point the body loads the block of node rows, the block of aggregated rows, the two weight matrices and the bias, and stores
  `relu (A · Wrel + X · Wroot + b)` of the blocks. Row `p` of a convolution depends only on row `p` of the two row arrays, and
  row `p` of block `t` is row `2000 t + p` of its array, so what point `t` writes back is block `t` of the convolution of the
  whole arrays; the fifty blocks tile the hundred thousand rows, so the result array ends holding that convolution.
-/
import proofs.«146916_j23699629539722_2_alg».proof.Proof.Gen.KernelIdeal.Frame
import proofs.«146916_j23699629539722_2_alg».proof.Proof.NetSpec

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.NetSpec Cert.DenseLib Cert.LayoutLib Cert.RowBlocks

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- What the first region's body stores is one convolution of the blocks it loads: the block of aggregated rows against the
    neighbour weights, the block of node rows against the root weights, the bias along every row, the cut at zero. -/
theorem pay_eq (x0 : Vec Ideal S2000x128 .bf16) (x1 : Vec Ideal S2000x128 .f32) (x2 x4 : Vec Ideal S128x128 .f32) (x3 : Vec Ideal S128 .f32) :
    k0_pay1 (F := Ideal) x0 x1 x2 x4 x3 = conv (M := 2000) (K := 128) (N := 128) x1 x0 x2 x4 (fun q => x3 (ix1 q)) := by
  unfold k0_pay1
  dsimp only
  rw [shapeCast_self, shapeCast_self]
  rw [matmul_eq_mm dot_S2000x128_S128x128_S2000x128_1_0_0_1_n_n rfl, matmul_eq_mm dot_S2000x128_S128x128_S2000x128_1_0_0_1_n_n rfl,
    broadcastTo_eq_rows, maximumf_splat_zero]
  have hb : (fun c : Fin 128 => shapeCast S1x128 x3 shapeCasts_S128_S1x128 (ix2 (0 : Fin 1) c)) = fun q => x3 (ix1 q) :=
    funext fun c => shapeCast_vecRow_apply x3 shapeCasts_S128_S1x128 0 c
  rw [hb]
  rfl

/-- The first layer's rows as one function of the arrays the region finds. -/
def rowsOut (c : Dev nD) : Mat 100000 128 :=
  conv (V c main_v15) (V c main_v4) (V c main_arg2) (V c main_arg4) (fun q => V c main_arg3 (ix1 q))

/-- The printed index maps over the grid: the two row windows and the output window sit at block `t` of the rows, the weights
    and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` of a row window is row `2000 t + p` of its array. -/
theorem blk0_row (c : Dev nD) (t : Fin cfg0.N) (p : Fin 2000) (k : Fin 128) (r : Fin 100000) (hr : r.val = t.val * 2000 + p.val) :
    (iblk0 V c 0 t : Vec Ideal S2000x128 .bf16) (ix2 p k) = (V c main_v4 : S100000x128.Idx → EReal) (ix2 r k) := by
  obtain ⟨e00, e01, -⟩ := idx_facts t
  show V c main_v4 (((cfg0.win 0).blk t).view.emb (ix2 p k)) = V c main_v4 (ix2 r k)
  refine congrArg (V c main_v4) (funext fun a => Fin.ext ?_)
  match a with
  | ⟨0, _⟩ => show win0_0.index t (0 : Fin 2) * 2000 + 1 * p.val = r.val; rw [e00, hr]; omega
  | ⟨1, _⟩ => show win0_0.index t (1 : Fin 2) * 128 + 1 * k.val = k.val; rw [e01]; omega

theorem blk1_row (c : Dev nD) (t : Fin cfg0.N) (p : Fin 2000) (k : Fin 128) (r : Fin 100000) (hr : r.val = t.val * 2000 + p.val) :
    (iblk0 V c 1 t : Vec Ideal S2000x128 .f32) (ix2 p k) = (V c main_v15 : S100000x128.Idx → EReal) (ix2 r k) := by
  obtain ⟨-, -, e10, e11, -⟩ := idx_facts t
  show V c main_v15 (((cfg0.win 1).blk t).view.emb (ix2 p k)) = V c main_v15 (ix2 r k)
  refine congrArg (V c main_v15) (funext fun a => Fin.ext ?_)
  match a with
  | ⟨0, _⟩ => show win0_1.index t (0 : Fin 2) * 2000 + 1 * p.val = r.val; rw [e10, hr]; omega
  | ⟨1, _⟩ => show win0_1.index t (1 : Fin 2) * 128 + 1 * k.val = k.val; rw [e11]; omega

/-- The weights' and the bias's one block is the whole array. -/
theorem blk2_all (c : Dev nD) (t : Fin cfg0.N) : (iblk0 V c 2 t : Vec Ideal S128x128 .f32) = V c main_arg2 := by
  obtain ⟨-, -, -, -, e20, e21, -⟩ := idx_facts t
  funext y
  show V c main_arg2 (((cfg0.win 2).blk t).view.emb y) = V c main_arg2 y
  refine congrArg (V c main_arg2) (funext fun a => Fin.ext ?_)
  match a with
  | ⟨0, _⟩ => show win0_2.index t (0 : Fin 2) * 128 + 1 * (y 0).val = (y 0).val; rw [e20]; omega
  | ⟨1, _⟩ => show win0_2.index t (1 : Fin 2) * 128 + 1 * (y 1).val = (y 1).val; rw [e21]; omega

theorem blk3_all (c : Dev nD) (t : Fin cfg0.N) : (iblk0 V c 3 t : Vec Ideal S128 .f32) = V c main_arg3 := by
  obtain ⟨-, -, -, -, -, -, e30, -⟩ := idx_facts t
  funext y
  show V c main_arg3 (((cfg0.win 3).blk t).view.emb y) = V c main_arg3 y
  refine congrArg (V c main_arg3) (funext fun a => Fin.ext ?_)
  match a with
  | ⟨0, _⟩ => show win0_3.index t (0 : Fin 1) * 128 + 1 * (y 0).val = (y 0).val; rw [e30]; omega

theorem blk4_all (c : Dev nD) (t : Fin cfg0.N) : (iblk0 V c 4 t : Vec Ideal S128x128 .f32) = V c main_arg4 := by
  obtain ⟨-, -, -, -, -, -, -, e40, e41, -⟩ := idx_facts t
  funext y
  show V c main_arg4 (((cfg0.win 4).blk t).view.emb y) = V c main_arg4 y
  refine congrArg (V c main_arg4) (funext fun a => Fin.ext ?_)
  match a with
  | ⟨0, _⟩ => show win0_4.index t (0 : Fin 2) * 128 + 1 * (y 0).val = (y 0).val; rw [e40]; omega
  | ⟨1, _⟩ => show win0_4.index t (1 : Fin 2) * 128 + 1 * (y 1).val = (y 1).val; rw [e41]; omega

/-- What point `t` writes back is block `t` of the first layer's rows. -/
theorem flushed_eq (c : Dev nD) (t : Fin cfg0.N) :
    (dat0 V c).flushed 5 t = ((cfg0.win 5).blk t).view.read (Elt Ideal) (rowsOut V c) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2, View.ld_unit_zero (S := S128) hz1]
  rw [pay_eq, blk2_all V c t, blk3_all V c t, blk4_all V c t]
  obtain ⟨-, -, -, -, -, -, -, -, -, e50, e51⟩ := idx_facts t
  have ht : t.val < 50 := lt_of_lt_of_eq t.isLt (N_0 : cfg0.N = 50)
  funext j
  obtain ⟨p, q, rfl⟩ : ∃ (p : Fin 2000) (q : Fin 128), j = ix2 p q := ⟨j 0, j 1, eq_ix2 j⟩
  have hp := p.isLt
  have hemb : ((cfg0.win 5).blk t).view.emb (ix2 p q) = ix2 (⟨t.val * 2000 + p.val, by omega⟩ : Fin 100000) q := by
    funext a; apply Fin.ext
    match a with
    | ⟨0, _⟩ => show win0_5.index t (0 : Fin 2) * 2000 + 1 * p.val = t.val * 2000 + p.val; rw [e50]; omega
    | ⟨1, _⟩ => show win0_5.index t (1 : Fin 2) * 128 + 1 * q.val = q.val; rw [e51]; omega
  show conv _ _ _ _ _ (ix2 p q) = rowsOut V c (((cfg0.win 5).blk t).view.emb (ix2 p q))
  rw [hemb]
  exact conv_row _ _ _ _ _ _ _ p ⟨t.val * 2000 + p.val, by omega⟩
    (fun k => blk1_row V c t p k _ rfl) (fun k => blk0_row V c t p k _ rfl) q

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v16).slice (win0_5.rect t)).set ↔ _
  rw [View.set_slice_whole, Rect.mem_set_unit]
  exact Iff.rfl

/-- Every row lies in the block of the point `row / 2000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, -, -, -, e50, e51⟩ := idx_facts t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    rw [e50]; show (i 0).val / 2000 * 2000 ≤ (i 0).val ∧ (i 0).val < (i 0).val / 2000 * 2000 + 2000; omega
  | ⟨1, _⟩ =>
    show win0_5.index t (1 : Fin 2) * 128 ≤ (i 1).val ∧ (i 1).val < win0_5.index t (1 : Fin 2) * 128 + 128
    rw [e51]; omega

/-- After the first region its result array holds the first layer's rows, as one function of the arrays the region found. -/
theorem final (c : Dev nD) : (dat0 V c).arrAt 5 cfg0.N = rowsOut V c :=
  (dat0 V c).arrAt_eq_of_cover 5 (rowsOut V c) (fun t _ => flushed_eq V c t) (cover)

end Cert.KernelIdeal.Layer1

end
-- ==== Proof.Head.lean ====
/-
  The second region of the kernel program: the fused second stage, computed on blocks of 2000 consecutive rows. At a grid point
  the body loads the block of first-layer rows and the block of their aggregated rows, forms the second convolution, multiplies
  the first layer's block by the upper half of the last weight matrix and the second layer's block by the lower half, adds the
  last bias, and stores the row-wise log-softmax: the scores less their row maxima, less the logarithm of the row sums of their
  exponentials. Every step acts within a row, so what point `t` writes back is block `t` of the fused stage of the whole arrays,
  and the fifty blocks tile the rows.
-/
import proofs.«146916_j23699629539722_2_alg».proof.Proof.Gen.KernelIdeal.Frame
import proofs.«146916_j23699629539722_2_alg».proof.Proof.NetSpec

noncomputable section

namespace Cert.KernelIdeal.Head

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.NetSpec Cert.DenseLib Cert.LayoutLib Cert.RowBlocks
open Cert.LogSoftmaxLib

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- A block's scores: the second convolution of the block's aggregated rows and first-layer rows, then both layers' rows
    against the two halves of the last weight matrix, plus the last bias. -/
def blockLogits (x0 : Vec Ideal S2000x128 .bf16) (x1 : Vec Ideal S2000x128 .f32) (x2 x4 : Vec Ideal S128x128 .f32) (x3 : Vec Ideal S128 .f32)
    (x5 x6 : Vec Ideal S128x40 .f32) (x7 : Vec Ideal S40 .f32) : Mat 2000 40 :=
  logits (M := 2000) (K := 128) (N := 40) x0 (conv (M := 2000) (K := 128) (N := 128) x1 x0 x2 x4 (fun q => x3 (ix1 q))) x5 x6 (fun q => x7 (ix1 q))

/-- The body's first carried value: the block's scores less their row maxima. -/
theorem pay2_eq (x0 : Vec Ideal S2000x128 .bf16) (x1 : Vec Ideal S2000x128 .f32) (x2 x4 : Vec Ideal S128x128 .f32) (x3 : Vec Ideal S128 .f32)
    (x5 x6 : Vec Ideal S128x40 .f32) (x7 : Vec Ideal S40 .f32) (p : Fin 2000) (q : Fin 40) :
    k1_pay2 (F := Ideal) x0 x1 x2 x4 x3 x5 x6 x7 (ix2 p q)
      = blockLogits x0 x1 x2 x4 x3 x5 x6 x7 (ix2 p q) - rowMax (blockLogits x0 x1 x2 x4 x3 x5 x6 x7) p := by
  unfold k1_pay2
  dsimp only
  rw [shapeCast_self, shapeCast_self, shapeCast_self, shapeCast_self]
  rw [matmul_eq_mm dot_S2000x128_S128x128_S2000x128_1_0_0_1_n_n rfl, matmul_eq_mm dot_S2000x128_S128x128_S2000x128_1_0_0_1_n_n rfl,
    matmul_eq_mm dot_S2000x128_S128x40_S2000x40_1_0_0_1_n_n rfl, matmul_eq_mm dot_S2000x128_S128x40_S2000x40_1_0_0_1_n_n rfl,
    broadcastTo_eq_rows, broadcastTo_eq_rows, maximumf_splat_zero]
  have hb : (fun c : Fin 128 => shapeCast S1x128 x3 shapeCasts_S128_S1x128 (ix2 (0 : Fin 1) c)) = fun q => x3 (ix1 q) :=
    funext fun c => shapeCast_vecRow_apply x3 shapeCasts_S128_S1x128 0 c
  have hbl : (fun c : Fin 40 => shapeCast S1x40 x7 shapeCasts_S40_S1x40 (ix2 (0 : Fin 1) c)) = fun q => x7 (ix1 q) :=
    funext fun c => shapeCast_vecRow_apply x7 shapeCasts_S40_S1x40 0 c
  rw [hb, hbl]
  exact shifted_vec (a := 2000) (b := 40) (blockLogits x0 x1 x2 x4 x3 x5 x6 x7) reduces_S2000x40_S2000 (.inl rfl) rfl
    shapeCasts_S2000_S2000x1 broadcasts_S2000x1_S2000x40 p q

/-- What the second region's body stores is the fused stage of the blocks it loads. -/
theorem pay_eq (x0 : Vec Ideal S2000x128 .bf16) (x1 : Vec Ideal S2000x128 .f32) (x2 x4 : Vec Ideal S128x128 .f32) (x3 : Vec Ideal S128 .f32)
    (x5 x6 : Vec Ideal S128x40 .f32) (x7 : Vec Ideal S40 .f32) :
    k1_pay1 (F := Ideal) (k1_pay2 x0 x1 x2 x4 x3 x5 x6 x7) (k1_pay3 x0 x1 x2 x4 x3 x5 x6 x7)
      = head (M := 2000) (K := 128) (C := 40) x1 x0 x2 x4 (fun q => x3 (ix1 q)) x5 x6 (fun q => x7 (ix1 q)) := by
  unfold k1_pay3 k1_pay1
  dsimp only
  exact logSoftmax_vec (a := 2000) (b := 40) (blockLogits x0 x1 x2 x4 x3 x5 x6 x7) (k1_pay2 x0 x1 x2 x4 x3 x5 x6 x7)
    (pay2_eq x0 x1 x2 x4 x3 x5 x6 x7) reduces_S2000x40_S2000 (.inl rfl) rfl shapeCasts_S2000_S2000x1 broadcasts_S2000x1_S2000x40

/-- The network's output rows as one function of the arrays the second region finds. -/
def rowsOut (c : Dev nD) : Mat 100000 40 :=
  head (V c main_v27) (V c main_v16) (V c main_arg5) (V c main_arg7) (fun q => V c main_arg6 (ix1 q))
    (V c main_v28) (V c main_v29) (fun q => V c main_arg9 (ix1 q))

/-- The printed index maps over the grid: the two row windows and the output window sit at block `t` of the rows, every weight
    and bias at its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- Row `p` of block `t` of a row window is row `2000 t + p` of its array. -/
theorem blk0_row (c : Dev nD) (t : Fin cfg1.N) (p : Fin 2000) (k : Fin 128) (r : Fin 100000) (hr : r.val = t.val * 2000 + p.val) :
    (iblk1 V c 0 t : Vec Ideal S2000x128 .bf16) (ix2 p k) = (V c main_v16 : S100000x128.Idx → EReal) (ix2 r k) := by
  obtain ⟨ea, eb, -⟩ := idx_facts t
  show V c main_v16 (((cfg1.win 0).blk t).view.emb (ix2 p k)) = V c main_v16 (ix2 r k)
  refine congrArg (V c main_v16) (funext fun a => Fin.ext ?_)
  match a with
  | ⟨0, _⟩ => show win1_0.index t (0 : Fin 2) * 2000 + 1 * p.val = r.val; rw [ea, hr]; omega
  | ⟨1, _⟩ => show win1_0.index t (1 : Fin 2) * 128 + 1 * k.val = k.val; rw [eb]; omega

theorem blk1_row (c : Dev nD) (t : Fin cfg1.N) (p : Fin 2000) (k : Fin 128) (r : Fin 100000) (hr : r.val = t.val * 2000 + p.val) :
    (iblk1 V c 1 t : Vec Ideal S2000x128 .f32) (ix2 p k) = (V c main_v27 : S100000x128.Idx → EReal) (ix2 r k) := by
  obtain ⟨-, -, ea, eb, -⟩ := idx_facts t
  show V c main_v27 (((cfg1.win 1).blk t).view.emb (ix2 p k)) = V c main_v27 (ix2 r k)
  refine congrArg (V c main_v27) (funext fun a => Fin.ext ?_)
  match a with
  | ⟨0, _⟩ => show win1_1.index t (0 : Fin 2) * 2000 + 1 * p.val = r.val; rw [ea, hr]; omega
  | ⟨1, _⟩ => show win1_1.index t (1 : Fin 2) * 128 + 1 * k.val = k.val; rw [eb]; omega

/-- Each weight's and each bias's one block is the whole array. -/
theorem blk2_all (c : Dev nD) (t : Fin cfg1.N) : (iblk1 V c 2 t : Vec Ideal S128x128 .f32) = V c main_arg5 := by
  obtain ⟨-, -, -, -, ea, eb, -⟩ := idx_facts t
  funext y
  show V c main_arg5 (((cfg1.win 2).blk t).view.emb y) = V c main_arg5 y
  refine congrArg (V c main_arg5) (funext fun a => Fin.ext ?_)
  match a with
  | ⟨0, _⟩ => show win1_2.index t (0 : Fin 2) * 128 + 1 * (y 0).val = (y 0).val; rw [ea]; omega
  | ⟨1, _⟩ => show win1_2.index t (1 : Fin 2) * 128 + 1 * (y 1).val = (y 1).val; rw [eb]; omega

theorem blk3_all (c : Dev nD) (t : Fin cfg1.N) : (iblk1 V c 3 t : Vec Ideal S128 .f32) = V c main_arg6 := by
  obtain ⟨-, -, -, -, -, -, ea, -⟩ := idx_facts t
  funext y
  show V c main_arg6 (((cfg1.win 3).blk t).view.emb y) = V c main_arg6 y
  refine congrArg (V c main_arg6) (funext fun a => Fin.ext ?_)
  match a with
  | ⟨0, _⟩ => show win1_3.index t (0 : Fin 1) * 128 + 1 * (y 0).val = (y 0).val; rw [ea]; omega

theorem blk4_all (c : Dev nD) (t : Fin cfg1.N) : (iblk1 V c 4 t : Vec Ideal S128x128 .f32) = V c main_arg7 := by
  obtain ⟨-, -, -, -, -, -, -, ea, eb, -⟩ := idx_facts t
  funext y
  show V c main_arg7 (((cfg1.win 4).blk t).view.emb y) = V c main_arg7 y
  refine congrArg (V c main_arg7) (funext fun a => Fin.ext ?_)
  match a with
  | ⟨0, _⟩ => show win1_4.index t (0 : Fin 2) * 128 + 1 * (y 0).val = (y 0).val; rw [ea]; omega
  | ⟨1, _⟩ => show win1_4.index t (1 : Fin 2) * 128 + 1 * (y 1).val = (y 1).val; rw [eb]; omega

theorem blk5_all (c : Dev nD) (t : Fin cfg1.N) : (iblk1 V c 5 t : Vec Ideal S128x40 .f32) = V c main_v28 := by
  obtain ⟨-, -, -, -, -, -, -, -, -, ea, eb, -⟩ := idx_facts t
  funext y
  show V c main_v28 (((cfg1.win 5).blk t).view.emb y) = V c main_v28 y
  refine congrArg (V c main_v28) (funext fun a => Fin.ext ?_)
  match a with
  | ⟨0, _⟩ => show win1_5.index t (0 : Fin 2) * 128 + 1 * (y 0).val = (y 0).val; rw [ea]; omega
  | ⟨1, _⟩ => show win1_5.index t (1 : Fin 2) * 40 + 1 * (y 1).val = (y 1).val; rw [eb]; omega

theorem blk6_all (c : Dev nD) (t : Fin cfg1.N) : (iblk1 V c 6 t : Vec Ideal S128x40 .f32) = V c main_v29 := by
  obtain ⟨-, -, -, -, -, -, -, -, -, -, -, ea, eb, -⟩ := idx_facts t
  funext y
  show V c main_v29 (((cfg1.win 6).blk t).view.emb y) = V c main_v29 y
  refine congrArg (V c main_v29) (funext fun a => Fin.ext ?_)
  match a with
  | ⟨0, _⟩ => show win1_6.index t (0 : Fin 2) * 128 + 1 * (y 0).val = (y 0).val; rw [ea]; omega
  | ⟨1, _⟩ => show win1_6.index t (1 : Fin 2) * 40 + 1 * (y 1).val = (y 1).val; rw [eb]; omega

theorem blk7_all (c : Dev nD) (t : Fin cfg1.N) : (iblk1 V c 7 t : Vec Ideal S40 .f32) = V c main_arg9 := by
  obtain ⟨-, -, -, -, -, -, -, -, -, -, -, -, -, ea, -⟩ := idx_facts t
  funext y
  show V c main_arg9 (((cfg1.win 7).blk t).view.emb y) = V c main_arg9 y
  refine congrArg (V c main_arg9) (funext fun a => Fin.ext ?_)
  match a with
  | ⟨0, _⟩ => show win1_7.index t (0 : Fin 1) * 40 + 1 * (y 0).val = (y 0).val; rw [ea]; omega

/-- What point `t` writes back is block `t` of the output rows. -/
theorem flushed_eq (c : Dev nD) (t : Fin cfg1.N) :
    (dat1 V c).flushed 8 t = ((cfg1.win 8).blk t).view.read (Elt Ideal) (rowsOut V c) := by
  show (cfg1.win 8).cut (grid1.coords t) ((dat1 V c).after 8 t) = _
  rw [after1_8]
  unfold out1_8
  rw [View.canon_unit_zero hz2]
  simp only [View.ld_unit_zero (S := S2000x128) hz2, View.ld_unit_zero (S := S128x128) hz2, View.ld_unit_zero (S := S128) hz1,
    View.ld_unit_zero (S := S128x40) hz2, View.ld_unit_zero (S := S40) hz1]
  rw [pay_eq, blk2_all V c t, blk3_all V c t, blk4_all V c t, blk5_all V c t, blk6_all V c t, blk7_all V c t]
  obtain ⟨-, -, -, -, -, -, -, -, -, -, -, -, -, -, ea, eb⟩ := idx_facts t
  have ht : t.val < 50 := lt_of_lt_of_eq t.isLt (N_1 : cfg1.N = 50)
  funext j
  obtain ⟨p, q, rfl⟩ : ∃ (p : Fin 2000) (q : Fin 40), j = ix2 p q := ⟨j 0, j 1, eq_ix2 j⟩
  have hp := p.isLt
  have hemb : ((cfg1.win 8).blk t).view.emb (ix2 p q) = ix2 (⟨t.val * 2000 + p.val, by omega⟩ : Fin 100000) q := by
    funext a; apply Fin.ext
    match a with
    | ⟨0, _⟩ => show win1_8.index t (0 : Fin 2) * 2000 + 1 * p.val = t.val * 2000 + p.val; rw [ea]; omega
    | ⟨1, _⟩ => show win1_8.index t (1 : Fin 2) * 40 + 1 * q.val = q.val; rw [eb]; omega
  show head _ _ _ _ _ _ _ _ (ix2 p q) = rowsOut V c (((cfg1.win 8).blk t).view.emb (ix2 p q))
  rw [hemb]
  exact head_row _ _ _ _ _ _ _ _ _ _ p ⟨t.val * 2000 + p.val, by omega⟩
    (fun k => blk1_row V c t p k _ rfl) (fun k => blk0_row V c t p k _ rfl) q

/-- An index of the array is in point `t`'s block iff each coordinate is in the block's range on its axis. -/
theorem mem_blk (t : Fin cfg1.N) (i : S100000x40.Idx) :
    i ∈ ((cfg1.win 8).blk t).view.set ↔ ∀ a : Fin 2, win1_8.index t a * S2000x40.size a ≤ (i a).val ∧ (i a).val < win1_8.index t a * S2000x40.size a + S2000x40.size a := by
  show i ∈ ((View.whole main_v30).slice (win1_8.rect t)).set ↔ _
  rw [View.set_slice_whole, Rect.mem_set_unit]
  exact Iff.rfl

/-- Every row lies in the block of the point `row / 2000`. -/
theorem cover (i : S100000x40.Idx) : ∃ t : Fin cfg1.N, (cfg1.win 8).flush t = true ∧ i ∈ ((cfg1.win 8).blk t).view.set := by
  have hi0 : (i 0).val < 100000 := (i 0).isLt
  have hi1 : (i 1).val < 40 := (i 1).isLt
  have hN : cfg1.N = 50 := N_1
  let t : Fin cfg1.N := ⟨(i 0).val / 2000, by rw [hN]; omega⟩
  obtain ⟨-, -, -, -, -, -, -, -, -, -, -, -, -, -, ea, eb⟩ := idx_facts t
  refine ⟨t, flush1_8 t, ?_⟩
  rw [mem_blk]
  intro a
  match a with
  | ⟨0, _⟩ =>
    show win1_8.index t (0 : Fin 2) * 2000 ≤ (i 0).val ∧ (i 0).val < win1_8.index t (0 : Fin 2) * 2000 + 2000
    rw [ea]; show (i 0).val / 2000 * 2000 ≤ (i 0).val ∧ (i 0).val < (i 0).val / 2000 * 2000 + 2000; omega
  | ⟨1, _⟩ =>
    show win1_8.index t (1 : Fin 2) * 40 ≤ (i 1).val ∧ (i 1).val < win1_8.index t (1 : Fin 2) * 40 + 40
    rw [eb]; omega

/-- After the second region its result array holds the output rows, as one function of the arrays the region found. -/
theorem final (c : Dev nD) : (dat1 V c).arrAt 8 cfg1.N = rowsOut V c :=
  (dat1 V c).arrAt_eq_of_cover 8 (rowsOut V c) (fun t _ => flushed_eq V c t) (cover)

end Cert.KernelIdeal.Head

end
-- ==== Proof.Aggregate.lean ====
/-
  The neighbour sum of a graph network as the host computes it, as ONE function of the node rows and the edge table: the
  source node of every edge (row 0 of the table, a negative index wrapped by the number of nodes) selects a row of the node
  array; the selected rows are added, edge by edge, into the row their target node (row 1 of the table) names, starting from
  zeros. Both programs of this certificate run exactly these host operations, so the bridge between them never opens this
  function: it only needs the two programs to apply it to equal arguments.
-/
import proofs.«146916_j23699629539722_2_alg».proof.Proof.Gen.ReferenceIdeal
import Idealize.ShloMosaic.PureOps.Ideal

noncomputable section

namespace Cert.Aggregate

open Idealize.ShloMosaic Cert.ReferenceIdeal Cert.ReferenceIdeal.Gen

/-- The source node of every edge: row 0 of the edge table. -/
def srcOf (E : (⟨S2x1600000, .i32⟩ : BufTy).Contents (Elt Ideal)) : (⟨S1600000, .i32⟩ : BufTy).Contents (Elt Ideal) :=
  shapeCast _ (extractStridedSlice S1x1600000 ![0, 0] E slices_S2x1600000_S1x1600000_0_0) shapeCasts_S1x1600000_S1600000

/-- The target node of every edge: row 1 of the edge table. -/
def dstOf (E : (⟨S2x1600000, .i32⟩ : BufTy).Contents (Elt Ideal)) : (⟨S1600000, .i32⟩ : BufTy).Contents (Elt Ideal) :=
  shapeCast _ (extractStridedSlice S1x1600000 ![1, 0] E slices_S2x1600000_S1x1600000_1_0) shapeCasts_S1x1600000_S1600000

/-- The rows of `X` at the edges' source nodes, summed into the rows their target nodes name. -/
def aggOf (X : (⟨S100000x128, .f32⟩ : BufTy).Contents (Elt Ideal)) (src dst : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 X
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

end Cert.Aggregate

end
-- ==== Proof.KernelValue.lean ====
/-
  The idealized kernel's result as one function of its arguments. On the extended reals a change of float format is the
  identity, so the array the first region reads its node rows from is the node array itself, and the array it reads its
  aggregated rows from is the neighbour sum of the node array. The first region leaves the first convolution of those; the host
  operations between the regions take the neighbour sum of that array again and cut the last weight matrix into its upper and
  lower half; the second region leaves the fused second stage of all of it.
-/
import proofs.«146916_j23699629539722_2_alg».proof.Proof.KernelRun
import proofs.«146916_j23699629539722_2_alg».proof.Proof.Layer1
import proofs.«146916_j23699629539722_2_alg».proof.Proof.Head
import proofs.«146916_j23699629539722_2_alg».proof.Proof.Aggregate
import Idealize.ShloMosaic.Lib.Pipeline.Value

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.NetSpec Cert.Aggregate

variable (m : (ℓ : Loc nD τ sig) → Buf (Elt Ideal) ℓ) (ρ : Dev nD → PrngReg) (c : Dev nD)

/-! ## What the first region finds -/

theorem V1_v4 : (V1 m ρ c main_v4 : S100000x128.Idx → EReal) = m ((c : Thread nD τ).loc main_arg0) := by
  show StableHlo.after hostOps0 (W0 m ρ c) (Proc.devRef .tc main_v4) = _
  after_results
  rfl

theorem W1_v1 : W1 m ρ c (Proc.devRef .tc main_v1) = srcOf (m ((c : Thread nD τ).loc main_arg1)) := by
  show StableHlo.after hostOps0 (W0 m ρ c) (Proc.devRef .tc main_v1) = _
  after_results
  rfl

theorem W1_v3 : W1 m ρ c (Proc.devRef .tc main_v3) = dstOf (m ((c : Thread nD τ).loc main_arg1)) := by
  show StableHlo.after hostOps0 (W0 m ρ c) (Proc.devRef .tc main_v3) = _
  after_results
  rfl

theorem V1_v15 : (V1 m ρ c main_v15 : S100000x128.Idx → EReal)
    = aggOf (m ((c : Thread nD τ).loc main_arg0)) (srcOf (m ((c : Thread nD τ).loc main_arg1))) (dstOf (m ((c : Thread nD τ).loc main_arg1))) := by
  show StableHlo.after hostOps0 (W0 m ρ c) (Proc.devRef .tc main_v15) = _
  after_results
  rfl

theorem W1_arg (b : Ref sig .tc) (hb : b = main_arg2 ∨ b = main_arg3 ∨ b = main_arg4 ∨ b = main_arg5 ∨ b = main_arg6 ∨ b = main_arg7 ∨ b = main_arg8 ∨ b = main_arg9) :
    W1 m ρ c (Proc.devRef .tc b) = m ((c : Thread nD τ).loc b) := by
  rcases hb with rfl | rfl | rfl | rfl | rfl | rfl | rfl | rfl <;>
  · show StableHlo.after hostOps0 (W0 m ρ c) (Proc.devRef .tc _) = _
    after_results

/-- The first layer's rows, from the arguments. -/
def layer1 : Mat 100000 128 :=
  conv (aggOf (m ((c : Thread nD τ).loc main_arg0)) (srcOf (m ((c : Thread nD τ).loc main_arg1))) (dstOf (m ((c : Thread nD τ).loc main_arg1))))
    (m ((c : Thread nD τ).loc main_arg0)) (m ((c : Thread nD τ).loc main_arg2)) (m ((c : Thread nD τ).loc main_arg4))
    (fun q => m ((c : Thread nD τ).loc main_arg3) (ix1 q))

/-- After the first region its result array holds the first layer's rows. -/
theorem W2_v16 : W2 m ρ c (Proc.devRef .tc main_v16) = layer1 m c := by
  refine (W2_arr m ρ c 5).trans ((Layer1.final (V1 m ρ) c).trans ?_)
  unfold Layer1.rowsOut layer1
  rw [V1_v15, V1_v4]
  rw [show V1 m ρ c main_arg2 = m ((c : Thread nD τ).loc main_arg2) from W1_arg m ρ c main_arg2 (by simp),
    show V1 m ρ c main_arg3 = m ((c : Thread nD τ).loc main_arg3) from W1_arg m ρ c main_arg3 (by simp),
    show V1 m ρ c main_arg4 = m ((c : Thread nD τ).loc main_arg4) from W1_arg m ρ c main_arg4 (by simp)]

/-! ## What the second region finds -/

theorem W2_keep (b : Ref sig .tc) (hb : ∀ w, Pipeline.arrRef spec0 w ≠ b) : W2 m ρ c (Proc.devRef .tc b) = W1 m ρ c (Proc.devRef .tc b) :=
  W2_of_ne m ρ c b hb

theorem V3_v16 : (V3 m ρ c main_v16 : S100000x128.Idx → EReal) = layer1 m c := by
  show StableHlo.after hostOps1 (W2 m ρ c) (Proc.devRef .tc main_v16) = _
  after_results
  exact W2_v16 m ρ c

theorem V3_v27 : (V3 m ρ c main_v27 : S100000x128.Idx → EReal)
    = aggOf (layer1 m c) (srcOf (m ((c : Thread nD τ).loc main_arg1))) (dstOf (m ((c : Thread nD τ).loc main_arg1))) := by
  show StableHlo.after hostOps1 (W2 m ρ c) (Proc.devRef .tc main_v27) = _
  after_results
  rw [W2_v16, W2_keep m ρ c main_v1 (by decide), W2_keep m ρ c main_v3 (by decide), W1_v1, W1_v3]
  rfl

/-- The upper and the lower half of the last weight matrix. -/
def upper : Mat 128 40 := extractStridedSlice S128x40 ![0, 0] (m ((c : Thread nD τ).loc main_arg8)) slices_S256x40_S128x40_0_0
def lower : Mat 128 40 := extractStridedSlice S128x40 ![128, 0] (m ((c : Thread nD τ).loc main_arg8)) slices_S256x40_S128x40_128_0

/-- The upper half's row `k` is row `k` of the matrix; the lower half's row `k` is row `128 + k`. -/
theorem upper_apply (k : Fin 128) (k' : Fin 256) (q : Fin 40) (hk : k'.val = k.val) :
    upper m c (ix2 k q) = m ((c : Thread nD τ).loc main_arg8) (ix2 k' q) := by
  unfold upper
  exact extractStridedSlice_apply ![0, 0] _ slices_S256x40_S128x40_0_0 (ix2 k q) (ix2 k' q) (fun a => by
    match a with
    | ⟨0, _⟩ => show k'.val = 0 + k.val; omega
    | ⟨1, _⟩ => show q.val = 0 + q.val; omega)

theorem lower_apply (k : Fin 128) (k' : Fin 256) (q : Fin 40) (hk : k'.val = 128 + k.val) :
    lower m c (ix2 k q) = m ((c : Thread nD τ).loc main_arg8) (ix2 k' q) := by
  unfold lower
  exact extractStridedSlice_apply ![128, 0] _ slices_S256x40_S128x40_128_0 (ix2 k q) (ix2 k' q) (fun a => by
    match a with
    | ⟨0, _⟩ => show k'.val = 128 + k.val; omega
    | ⟨1, _⟩ => show q.val = 0 + q.val; omega)

theorem V3_v28 : (V3 m ρ c main_v28 : S128x40.Idx → EReal) = upper m c := by
  show StableHlo.after hostOps1 (W2 m ρ c) (Proc.devRef .tc main_v28) = _
  after_results
  rw [W2_keep m ρ c main_arg8 (by decide), W1_arg m ρ c main_arg8 (by simp)]
  rfl

theorem V3_v29 : (V3 m ρ c main_v29 : S128x40.Idx → EReal) = lower m c := by
  show StableHlo.after hostOps1 (W2 m ρ c) (Proc.devRef .tc main_v29) = _
  after_results
  rw [W2_keep m ρ c main_arg8 (by decide), W1_arg m ρ c main_arg8 (by simp)]
  rfl

theorem V3_arg (b : Ref sig .tc) (hb : b = main_arg5 ∨ b = main_arg6 ∨ b = main_arg7 ∨ b = main_arg9) :
    V3 m ρ c b = m ((c : Thread nD τ).loc b) := by
  rcases hb with rfl | rfl | rfl | rfl
  · show StableHlo.after hostOps1 (W2 m ρ c) (Proc.devRef .tc main_arg5) = _
    after_results
    rw [W2_keep m ρ c main_arg5 (by decide), W1_arg m ρ c main_arg5 (by simp)]
  · show StableHlo.after hostOps1 (W2 m ρ c) (Proc.devRef .tc main_arg6) = _
    after_results
    rw [W2_keep m ρ c main_arg6 (by decide), W1_arg m ρ c main_arg6 (by simp)]
  · show StableHlo.after hostOps1 (W2 m ρ c) (Proc.devRef .tc main_arg7) = _
    after_results
    rw [W2_keep m ρ c main_arg7 (by decide), W1_arg m ρ c main_arg7 (by simp)]
  · show StableHlo.after hostOps1 (W2 m ρ c) (Proc.devRef .tc main_arg9) = _
    after_results
    rw [W2_keep m ρ c main_arg9 (by decide), W1_arg m ρ c main_arg9 (by simp)]

/-- The network's output, from the arguments. -/
def output : Mat 100000 40 :=
  head (aggOf (layer1 m c) (srcOf (m ((c : Thread nD τ).loc main_arg1))) (dstOf (m ((c : Thread nD τ).loc main_arg1)))) (layer1 m c)
    (m ((c : Thread nD τ).loc main_arg5)) (m ((c : Thread nD τ).loc main_arg7)) (fun q => m ((c : Thread nD τ).loc main_arg6) (ix1 q))
    (upper m c) (lower m c) (fun q => m ((c : Thread nD τ).loc main_arg9) (ix1 q))

/-- After the second region the result array holds the network's output. -/
theorem W4_v30 : W4 m ρ c (Proc.devRef .tc main_v30) = output m c := by
  refine (W4_arr m ρ c 8).trans ((Head.final (V3 m ρ) c).trans ?_)
  unfold Head.rowsOut output
  rw [V3_v27, V3_v16, V3_v28, V3_v29, V3_arg m ρ c main_arg5 (by simp), V3_arg m ρ c main_arg6 (by simp),
    V3_arg m ρ c main_arg7 (by simp), V3_arg m ρ c main_arg9 (by simp)]

end Cert.KernelIdeal.Whole

end
-- ==== Proof.LibRows.lean ====
/-
  General lemmas about whole rows of rank-two arrays: a gather of rows of a table at a column of start indices, read
  at an entry; two arrays of equal height laid side by side, read left and right of the seam; two vectors laid end to
  end; a one-column array cast to a vector; a unit-stride cut of a vector. None mentions a program.
-/
import Idealize.ShloMosaic.Lib.ValueIdx
import Idealize.ShloMosaic.Lib.ValueLayout
import Idealize.ShloMosaic.Lib.Pipeline.Value

noncomputable section

namespace Cert.RowsLib

open Idealize.ShloMosaic Idealize.ShloMosaic.ValueIdx

variable {α : Type}

/-! ## A gather of whole rows -/

/-- The dimension numbers of a gather of whole rows: a table of N rows of C entries, a column of R start indices, a
    result of R rows; the row axis is collapsed and named by the start index, the column axis is the offset axis. -/
abbrev rowGatherDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the word read as a signed integer, clamped into the table. -/
def rowOf (N : ℕ) (hN : 0 < N) {w : ℕ} (b : BitVec w) : Fin N := ⟨min b.toInt.toNat (N - 1), by omega⟩

/-- THE ROW GATHER READ AT (r, c): the table at the row that start index r names, column c. -/
theorem gather_rows_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N C R wf) x idx (ix2 r c) = x (ix2 (rowOf N hN (idx (ix2 r (0 : Fin 1)))) c) := by
  unfold Host.gather
  congr 1
  funext a
  refine Fin.ext ?_
  match a with
  | ⟨0, _⟩ =>
    show (rowGatherDims N C R wf).start (ix2 r c) idx 0 + (rowGatherDims N C R wf).batchCoord (ix2 r c) 0
      + (rowGatherDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r c) ⟨List.idxOf (0 : Fin 2) (rowGatherDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N C R wf).start (ix2 r c) idx 1 + (rowGatherDims N C R wf).batchCoord (ix2 r c) 1
      + (rowGatherDims N C R wf).offCoord (ix2 r c) 1 = c.val
    rw [GatherDims.batchCoord_eq_zero _ _ _ List.not_mem_nil]
    unfold GatherDims.start
    rw [dif_neg (show (1 : Fin 2) ∉ (rowGatherDims N C R wf).startIndexMap from (by decide : (1 : Fin 2) ∉ ([0] : List (Fin 2))))]
    unfold GatherDims.offCoord
    rw [dif_pos (show (1 : Fin 2) ∈ (rowGatherDims N C R wf).sKept from
      (GatherDims.mem_sKept _ _).mpr ⟨(by decide : (1 : Fin 2) ∉ ([0] : List (Fin 2))), List.not_mem_nil⟩)]
    simp only [Nat.zero_add]
    rfl

/-! ## Side by side, end to end -/

/-- Two arrays of M rows laid side by side: left of the seam the result reads the first. -/
theorem concat_cols_left {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin A) (k' : Fin T) (hk : k'.val = k.val) :
    concatenate ⟨2, ![M, T]⟩ (1 : Fin 2) [⟨⟨2, ![M, A]⟩, x₁⟩, ⟨⟨2, ![M, B]⟩, x₂⟩] h (ix2 p k') = x₁ (ix2 p k) :=
  concatenate_pair_apply_left (1 : Fin 2) x₁ x₂ h (ix2 p k') rfl (ix2 p k) (fun b => by
    match b with
    | ⟨0, _⟩ => rfl
    | ⟨1, _⟩ => exact hk.symm)

/-- Right of the seam it reads the second, the first one's width less. -/
theorem concat_cols_right {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin B) (k' : Fin T) (hk : k'.val = A + k.val) :
    concatenate ⟨2, ![M, T]⟩ (1 : Fin 2) [⟨⟨2, ![M, A]⟩, x₁⟩, ⟨⟨2, ![M, B]⟩, x₂⟩] h (ix2 p k') = x₂ (ix2 p k) :=
  concatenate_pair_apply_right (1 : Fin 2) x₁ x₂ h (ix2 p k') rfl rfl (ix2 p k) (fun b hb => by
    match b with
    | ⟨0, _⟩ => rfl
    | ⟨1, _⟩ => exact absurd rfl hb) (by
    show k.val + A = k'.val
    omega)

/-- Two vectors laid end to end: before the seam the result reads the first. -/
theorem concat_vec_left {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin A) (k' : Fin T) (hk : k'.val = k.val) :
    concatenate ⟨1, ![T]⟩ (0 : Fin 1) [⟨⟨1, ![A]⟩, x₁⟩, ⟨⟨1, ![B]⟩, x₂⟩] h (ix1 k') = x₁ (ix1 k) :=
  concatenate_pair_apply_left (0 : Fin 1) x₁ x₂ h (ix1 k') rfl (ix1 k) (fun b => by
    match b with
    | ⟨0, _⟩ => exact hk.symm)

/-- After the seam it reads the second, the first one's length less. -/
theorem concat_vec_right {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin B) (k' : Fin T) (hk : k'.val = A + k.val) :
    concatenate ⟨1, ![T]⟩ (0 : Fin 1) [⟨⟨1, ![A]⟩, x₁⟩, ⟨⟨1, ![B]⟩, x₂⟩] h (ix1 k') = x₂ (ix1 k) :=
  concatenate_pair_apply_right (0 : Fin 1) x₁ x₂ h (ix1 k') rfl rfl (ix1 k) (fun b hb => by
    match b with
    | ⟨0, _⟩ => exact absurd rfl hb) (by
    show k.val + A = k'.val
    omega)

/-! ## Small casts and cuts -/

/-- A one-column array cast to a vector reads, at p, the column at p. -/
theorem shapeCast_colvec_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector cut from o reads, at j, the source at o + j. -/
theorem slice_vec_apply {n m : ℕ} (o : ℕ) (x : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] x h (ix1 j) = x (ix1 k) :=
  extractStridedSlice_apply _ _ _ _ _ (fun ax => by
    match ax with
    | ⟨0, _⟩ => exact hk)

end Cert.RowsLib

end
-- ==== Proof.LibSplitProduct.lean ====
/-
  General lemma: a matrix product whose left operand is two arrays laid side by side and whose right operand is cut into the
  matching upper and lower halves is the sum of the two products, entry by entry — a finite sum over `A + B` indices split at
  `A`. Over the extended reals this needs no finiteness: only that addition is commutative and associative. None mentions a
  program.
-/
import proofs.«146916_j23699629539722_2_alg».proof.Proof.LibDense

noncomputable section

namespace Cert.SplitProductLib

open Idealize.ShloMosaic Idealize.ShloMosaic.ValueIdx Cert.LayoutLib Cert.DenseLib

/-- `Z` is `X₁` and `X₂` side by side (`hZ₁`, `hZ₂`), `U` and `Lw` are the upper and lower rows of `W` (`hU`, `hL`):
    `(Z · W) (p, q) = (X₁ · U) (p, q) + (X₂ · Lw) (p, q)`. -/
theorem mm_side_by_side {M A B T N : ℕ} (hT : T = A + B)
    (X₁ : (⟨2, ![M, A]⟩ : Shape).Idx → EReal) (X₂ : (⟨2, ![M, B]⟩ : Shape).Idx → EReal) (Z : (⟨2, ![M, T]⟩ : Shape).Idx → EReal)
    (W : (⟨2, ![T, N]⟩ : Shape).Idx → EReal) (U : (⟨2, ![A, N]⟩ : Shape).Idx → EReal) (Lw : (⟨2, ![B, N]⟩ : Shape).Idx → EReal)
    (p : Fin M) (q : Fin N)
    (hZ₁ : ∀ (k : Fin A) (k' : Fin T), k'.val = k.val → Z (ix2 p k') = X₁ (ix2 p k))
    (hZ₂ : ∀ (k : Fin B) (k' : Fin T), k'.val = A + k.val → Z (ix2 p k') = X₂ (ix2 p k))
    (hU : ∀ (k : Fin A) (k' : Fin T), k'.val = k.val → W (ix2 k' q) = U (ix2 k q))
    (hL : ∀ (k : Fin B) (k' : Fin T), k'.val = A + k.val → W (ix2 k' q) = Lw (ix2 k q)) :
    mm Z W (ix2 p q) = mm X₁ U (ix2 p q) + mm X₂ Lw (ix2 p q) := by
  subst hT
  rw [mm_apply, mm_apply, mm_apply, Fin.sum_univ_add]
  refine congrArg₂ (· + ·) (Finset.sum_congr rfl fun k _ => ?_) (Finset.sum_congr rfl fun k _ => ?_)
  · rw [hZ₁ k (Fin.castAdd B k) rfl, hU k (Fin.castAdd B k) rfl]
  · rw [hZ₂ k (Fin.natAdd A k) rfl, hL k (Fin.natAdd A k) rfl]

end Cert.SplitProductLib

end
-- ==== Proof.RefStages.lean ====
/-
  The idealized reference's result as one function of its arguments. Its @main is read in three stretches, each over the
  contents the stretch before it left, so that no composed term is ever written out: the first convolution (bias added before
  the root term — the same array as bias last, addition on the extended reals being commutative and associative); the second
  convolution over the first layer's rows; then the two layers' rows side by side against the whole last weight matrix — the
  sum of the two half products —, the last bias and the row-wise log-softmax in the host's spelling.
-/
import proofs.«146916_j23699629539722_2_alg».proof.Proof.RefRun
import proofs.«146916_j23699629539722_2_alg».proof.Proof.NetSpec
import proofs.«146916_j23699629539722_2_alg».proof.Proof.Aggregate
import proofs.«146916_j23699629539722_2_alg».proof.Proof.LibRows
import proofs.«146916_j23699629539722_2_alg».proof.Proof.LibSplitProduct
import Idealize.ShloMosaic.Lib.Pipeline.Frame

set_option maxRecDepth 16384

noncomputable section

namespace Cert.ReferenceIdeal.Stages

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.ValueP
open Cert.NetSpec Cert.Aggregate Cert.DenseLib Cert.LayoutLib Cert.LogSoftmaxLib Cert.RowsLib Cert.SplitProductLib

/-! ## The stages as whole-array functions -/

/-- One convolution in the host's spelling: the bias added before the root term, the cut at zero against a broadcast zero. -/
def hostConv (A X : FVec Ideal S100000x128 .f32) (Wr Wo : FVec Ideal S128x128 .f32) (b : FVec Ideal S128 .f32) : FVec Ideal S100000x128 .f32 :=
  maximumf (addf (addf (Host.dotGeneral dot_S100000x128_S128x128_S100000x128_1_0_0_1_n_n none A Wr)
      (broadcastInDim S100000x128 ![0, 1] bcast_S1x128_S100000x128_0_1 (broadcastInDim S1x128 ![1] bcast_S128_S1x128_1 b)))
      (Host.dotGeneral dot_S100000x128_S128x128_S100000x128_1_0_0_1_n_n none X Wo))
    (broadcastInDim S100000x128 ![] bcast_S_S100000x128 (constant (F := Ideal) S_ .f32 0x00000000#32))

/-- It is the convolution. -/
theorem conv_host (A X : FVec Ideal S100000x128 .f32) (Wr Wo : FVec Ideal S128x128 .f32) (b : FVec Ideal S128 .f32) :
    hostConv A X Wr Wo b = conv (M := 100000) (K := 128) (N := 128) A X Wr Wo (fun q => b (ix1 q)) := by
  unfold hostConv
  rw [dotGeneral_eq_mm dot_S100000x128_S128x128_S100000x128_1_0_0_1_n_n rfl, dotGeneral_eq_mm dot_S100000x128_S128x128_S100000x128_1_0_0_1_n_n rfl,
    broadcastInDim_eq_rows, maximumf_bcast_zero]
  exact convBiasFirst_eq (M := 100000) (K := 128) (N := 128) A X Wr Wo (fun q => b (ix1 q))

/-- The scores in the host's spelling: the two layers' rows side by side against the whole last weight matrix, plus the bias. -/
def hostLogits (X1 X2 : FVec Ideal S100000x128 .f32) (W : FVec Ideal S256x40 .f32) (b : FVec Ideal S40 .f32) : FVec Ideal S100000x40 .f32 :=
  addf (Host.dotGeneral dot_S100000x256_S256x40_S100000x40_1_0_0_1_n_n none
      (concatenate S100000x256 1 [⟨S100000x128, X1⟩, ⟨S100000x128, X2⟩] concatenates_S100000x128_S100000x128_S100000x256_d1) W)
    (broadcastInDim S100000x40 ![0, 1] bcast_S1x40_S100000x40_0_1 (broadcastInDim S1x40 ![1] bcast_S40_S1x40_1 b))

/-- They are the scores over the two halves of the weight matrix. -/
theorem logits_host (X1 X2 : FVec Ideal S100000x128 .f32) (W : FVec Ideal S256x40 .f32) (b : FVec Ideal S40 .f32)
    (U Lw : Mat 128 40)
    (hU : ∀ (k : Fin 128) (k' : Fin 256) (q : Fin 40), k'.val = k.val → W (ix2 k' q) = U (ix2 k q))
    (hL : ∀ (k : Fin 128) (k' : Fin 256) (q : Fin 40), k'.val = 128 + k.val → W (ix2 k' q) = Lw (ix2 k q)) :
    hostLogits X1 X2 W b = logits (M := 100000) (K := 128) (N := 40) X1 X2 U Lw (fun q => b (ix1 q)) := by
  unfold hostLogits
  rw [dotGeneral_eq_mm dot_S100000x256_S256x40_S100000x40_1_0_0_1_n_n rfl, broadcastInDim_eq_rows]
  funext i
  obtain ⟨p, q, rfl⟩ : ∃ (p : Fin 100000) (q : Fin 40), i = ix2 p q := ⟨i 0, i 1, eq_ix2 i⟩
  rw [logits_apply]
  show mm _ W (ix2 p q) + b (ix1 q) = _
  rw [mm_side_by_side (M := 100000) (A := 128) (B := 128) (T := 256) (N := 40) rfl X1 X2 _ W U Lw p q
    (fun k k' hk => concat_cols_left X1 X2 concatenates_S100000x128_S100000x128_S100000x256_d1 p k k' hk)
    (fun k k' hk => concat_cols_right X1 X2 concatenates_S100000x128_S100000x128_S100000x256_d1 p k k' hk)
    (fun k k' hk => hU k k' q hk) (fun k k' hk => hL k k' q hk)]

/-- The row-wise log-softmax in the host's spelling. -/
def hostLogSoftmax (Lg : FVec Ideal S100000x40 .f32) : FVec Ideal S100000x40 .f32 :=
    subf (subf Lg (broadcastInDim S100000x40 ![0, 1] bcast_S100000x1_S100000x40_0_1 (broadcastInDim S100000x1 ![0] bcast_S100000_S100000x1_0
        (maximumf (broadcastInDim S100000 ![] bcast_S_S100000 (constant (F := Ideal) S_ .f32 0xFF800000#32))
          (Host.reduce FloatOps.maximumf Lg (constant (F := Ideal) S_ .f32 0xFF800000#32) reducesTo_S100000x40_S100000_d1 h_S_)))))
      (broadcastInDim S100000x40 ![0, 1] bcast_S100000x1_S100000x40_0_1 (Host.log (broadcastInDim S100000x1 ![0] bcast_S100000_S100000x1_0
        (Host.reduceAdd (Host.exp (subf Lg (broadcastInDim S100000x40 ![0, 1] bcast_S100000x1_S100000x40_0_1 (broadcastInDim S100000x1 ![0] bcast_S100000_S100000x1_0
          (maximumf (broadcastInDim S100000 ![] bcast_S_S100000 (constant (F := Ideal) S_ .f32 0xFF800000#32))
            (Host.reduce FloatOps.maximumf Lg (constant (F := Ideal) S_ .f32 0xFF800000#32) reducesTo_S100000x40_S100000_d1 h_S_))))))
          (constant (F := Ideal) S_ .f32 0x00000000#32) reducesTo_S100000x40_S100000_d1 h_S_))))

/-- It is the log-softmax. -/
theorem logSoftmax_hostTerm (Lg : FVec Ideal S100000x40 .f32) : hostLogSoftmax Lg = logSoftmax (a := 100000) (b := 40) Lg :=
  logSoftmax_host (a := 100000) (b := 40) Lg _
    (fun p q => shifted_host (a := 100000) (b := 40) Lg reducesTo_S100000x40_S100000_d1 (by decide) h_S_ bcast_S_S100000
      bcast_S100000_S100000x1_0 bcast_S100000x1_S100000x40_0_1 p q)
    reducesTo_S100000x40_S100000_d1 (by decide) h_S_ bcast_S100000_S100000x1_0 bcast_S100000x1_S100000x40_0_1

end Cert.ReferenceIdeal.Stages

end
-- ==== Proof.RefValue.lean ====
/-
  The idealized reference's run read in three stretches, each over the contents the stretch before it left, so that no composed
  term is ever written out: the first convolution's operations, the second convolution's, and the last layer with the
  log-softmax. The result is the log-softmax of the scores of both layers' rows against the two halves of the last weight
  matrix; the arguments are left as launched, none of the operations writing one.
-/
import proofs.«146916_j23699629539722_2_alg».proof.Proof.RefRun
import proofs.«146916_j23699629539722_2_alg».proof.Proof.RefStages
import Idealize.ShloMosaic.Lib.Pipeline.Frame

set_option maxRecDepth 16384

noncomputable section

namespace Cert.ReferenceIdeal.Whole

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.ValueP Cert.ReferenceIdeal.Stages
open Cert.NetSpec Cert.Aggregate Cert.DenseLib Cert.LayoutLib Cert.LogSoftmaxLib Cert.RowsLib Cert.SplitProductLib

/-! ## The run, stretch by stretch -/

/-! ## The typed references of the outlined functions: their transports are the identity -/

/-- A value carried into a typed reference's buffer and back is the value. -/
theorem ofBuf_toBuf {T : BufTy} (x : TRef sig T) (v : T.Contents (Elt Ideal)) : x.ofBuf (x.toBuf v) = v := by
  obtain ⟨r, h, h1, h2⟩ := x
  subst h
  rfl

theorem ofBuf_v19 (v : (⟨S100000x128, .f32⟩ : BufTy).Contents (Elt Ideal)) : (TRef.of (T := ⟨S100000x128, .f32⟩) main_v19).ofBuf v = v := rfl
theorem toBuf_v20 (v : (⟨S100000x128, .f32⟩ : BufTy).Contents (Elt Ideal)) : (TRef.of (T := ⟨S100000x128, .f32⟩) main_v20).toBuf v = v := rfl
theorem ofBuf_v36 (v : (⟨S100000x128, .f32⟩ : BufTy).Contents (Elt Ideal)) : (TRef.of (T := ⟨S100000x128, .f32⟩) main_v36).ofBuf v = v := rfl
theorem toBuf_v37 (v : (⟨S100000x128, .f32⟩ : BufTy).Contents (Elt Ideal)) : (TRef.of (T := ⟨S100000x128, .f32⟩) main_v37).toBuf v = v := rfl
theorem ofBuf_v42 (v : (⟨S100000x40, .f32⟩ : BufTy).Contents (Elt Ideal)) : (TRef.of (T := ⟨S100000x40, .f32⟩) main_v42).ofBuf v = v := rfl
theorem toBuf_v43 (v : (⟨S100000x40, .f32⟩ : BufTy).Contents (Elt Ideal)) : (TRef.of (T := ⟨S100000x40, .f32⟩) main_v43).toBuf v = v := rfl

variable (m : (ℓ : Loc nD τ sig) → Buf (Elt Ideal) ℓ) (c : Dev nD)

/-- The operations from `n` on run over what the first `n` left. -/
theorem after_split (n : ℕ) (l : List (HloOp τ sig (Elt Ideal))) (V : Valuation τ sig (Elt Ideal)) :
    after l V = after (l.drop n) (after (l.take n) V) := by
  conv_lhs => rw [← List.take_append_drop n l]
  exact StableHlo.after_append _ _ _

/-- The contents after the first convolution's operations. -/
def WA : Valuation τ sig (Elt Ideal) := after ((ops (F := Ideal)).take 26) (launchContents m c)
/-- The contents after the second convolution's operations. -/
def WB : Valuation τ sig (Elt Ideal) := after (((ops (F := Ideal)).drop 26).take 22) (WA m c)

theorem after_ops (b : Ref sig .tc) :
    after (ops (F := Ideal)) (launchContents m c) (Proc.devRef .tc b) = after (((ops (F := Ideal)).drop 26).drop 22) (WB m c) (Proc.devRef .tc b) := by
  unfold WB WA
  rw [← after_split 22 (ops.drop 26), ← after_split 26 ops]

/-- The first layer's rows, from the arguments. -/
def layer1 : Mat 100000 128 :=
  conv (aggOf (m ((c.tc : Thread nD τ).loc main_arg0)) (srcOf (m ((c.tc : Thread nD τ).loc main_arg1))) (dstOf (m ((c.tc : Thread nD τ).loc main_arg1))))
    (m ((c.tc : Thread nD τ).loc main_arg0)) (m ((c.tc : Thread nD τ).loc main_arg2)) (m ((c.tc : Thread nD τ).loc main_arg4))
    (fun q => m ((c.tc : Thread nD τ).loc main_arg3) (ix1 q))

theorem WA_v20 : (WA m c (Proc.devRef .tc main_v20) : S100000x128.Idx → EReal) = layer1 m c := by
  unfold WA
  simp only [ops, List.take_succ_cons, List.take_zero]
  after_results_simp
  simp only [ofBuf_toBuf, toBuf_v20, ofBuf_v19]
  refine Eq.trans ?_ (conv_host (aggOf (m ((c.tc : Thread nD τ).loc main_arg0)) (srcOf (m ((c.tc : Thread nD τ).loc main_arg1))) (dstOf (m ((c.tc : Thread nD τ).loc main_arg1)))) (m ((c.tc : Thread nD τ).loc main_arg0)) (m ((c.tc : Thread nD τ).loc main_arg2)) (m ((c.tc : Thread nD τ).loc main_arg4)) (m ((c.tc : Thread nD τ).loc main_arg3)))
  rfl

theorem WA_v1 : WA m c (Proc.devRef .tc main_v1) = srcOf (m ((c.tc : Thread nD τ).loc main_arg1)) := by
  unfold WA
  simp only [ops, List.take_succ_cons, List.take_zero]
  after_results_simp
  rfl

theorem WA_v3 : WA m c (Proc.devRef .tc main_v3) = dstOf (m ((c.tc : Thread nD τ).loc main_arg1)) := by
  unfold WA
  simp only [ops, List.take_succ_cons, List.take_zero]
  after_results_simp
  rfl

theorem WA_arg (b : Ref sig .tc) (hb : b = main_arg5 ∨ b = main_arg6 ∨ b = main_arg7 ∨ b = main_arg8 ∨ b = main_arg9) :
    WA m c (Proc.devRef .tc b) = m ((c.tc : Thread nD τ).loc b) := by
  rcases hb with rfl | rfl | rfl | rfl | rfl <;>
  · unfold WA
    simp only [ops, List.take_succ_cons, List.take_zero]
    after_results_simp

/-- The second layer's rows, from the arguments. -/
def layer2 : Mat 100000 128 :=
  conv (aggOf (layer1 m c) (srcOf (m ((c.tc : Thread nD τ).loc main_arg1))) (dstOf (m ((c.tc : Thread nD τ).loc main_arg1))))
    (layer1 m c) (m ((c.tc : Thread nD τ).loc main_arg5)) (m ((c.tc : Thread nD τ).loc main_arg7))
    (fun q => m ((c.tc : Thread nD τ).loc main_arg6) (ix1 q))

theorem WB_v37 : (WB m c (Proc.devRef .tc main_v37) : S100000x128.Idx → EReal) = layer2 m c := by
  unfold WB
  simp only [ops, List.drop_succ_cons, List.drop_zero, List.take_succ_cons, List.take_zero]
  after_results_simp
  simp only [ofBuf_toBuf, toBuf_v37, ofBuf_v36]
  rw [WA_v20, WA_v1, WA_v3, WA_arg m c main_arg5 (by simp), WA_arg m c main_arg6 (by simp), WA_arg m c main_arg7 (by simp)]
  refine Eq.trans ?_ (conv_host (aggOf (layer1 m c) (srcOf (m ((c.tc : Thread nD τ).loc main_arg1))) (dstOf (m ((c.tc : Thread nD τ).loc main_arg1)))) (layer1 m c) (m ((c.tc : Thread nD τ).loc main_arg5)) (m ((c.tc : Thread nD τ).loc main_arg7)) (m ((c.tc : Thread nD τ).loc main_arg6)))
  rfl

theorem WB_v20 : (WB m c (Proc.devRef .tc main_v20) : S100000x128.Idx → EReal) = layer1 m c := by
  unfold WB
  simp only [ops, List.drop_succ_cons, List.drop_zero, List.take_succ_cons, List.take_zero]
  after_results_simp
  exact WA_v20 m c

theorem WB_arg (b : Ref sig .tc) (hb : b = main_arg8 ∨ b = main_arg9) :
    WB m c (Proc.devRef .tc b) = m ((c.tc : Thread nD τ).loc b) := by
  rcases hb with rfl | rfl
  · unfold WB
    simp only [ops, List.drop_succ_cons, List.drop_zero, List.take_succ_cons, List.take_zero]
    after_results_simp
    exact WA_arg m c main_arg8 (by simp)
  · unfold WB
    simp only [ops, List.drop_succ_cons, List.drop_zero, List.take_succ_cons, List.take_zero]
    after_results_simp
    exact WA_arg m c main_arg9 (by simp)

/-- THE REFERENCE'S RESULT: the log-softmax of the scores of both layers' rows against any upper and lower half `U`, `Lw` of
    the last weight matrix. -/
theorem result_eq (U Lw : Mat 128 40)
    (hU : ∀ (k : Fin 128) (k' : Fin 256) (q : Fin 40), k'.val = k.val → m ((c.tc : Thread nD τ).loc main_arg8) (ix2 k' q) = U (ix2 k q))
    (hL : ∀ (k : Fin 128) (k' : Fin 256) (q : Fin 40), k'.val = 128 + k.val → m ((c.tc : Thread nD τ).loc main_arg8) (ix2 k' q) = Lw (ix2 k q)) :
    (after (ops (F := Ideal)) (launchContents m c) (Proc.devRef .tc main_v43) : S100000x40.Idx → EReal)
      = logSoftmax (logits (layer1 m c) (layer2 m c) U Lw (fun q => m ((c.tc : Thread nD τ).loc main_arg9) (ix1 q))) := by
  rw [after_ops]
  simp only [ops, List.drop_succ_cons, List.drop_zero]
  after_results_simp
  simp only [ofBuf_toBuf, toBuf_v43, ofBuf_v42]
  rw [WB_v20, WB_v37, WB_arg m c main_arg8 (by simp), WB_arg m c main_arg9 (by simp)]
  refine Eq.trans ?_ ((congrArg hostLogSoftmax (logits_host (layer1 m c) (layer2 m c) (m ((c.tc : Thread nD τ).loc main_arg8)) (m ((c.tc : Thread nD τ).loc main_arg9)) U Lw hU hL)).trans
    (logSoftmax_hostTerm _))
  rfl

end Cert.ReferenceIdeal.Whole

end
-- ==== Proof.RefKept.lean ====
/-
  The idealized reference leaves its arguments as launched: none of its host operations writes an argument's buffer, so the
  fold of the operations over the launch contents, read at an argument, is the launch contents there.
-/
import proofs.«146916_j23699629539722_2_alg».proof.Proof.RefRun
import Idealize.ShloMosaic.PureOps.Ideal

set_option maxRecDepth 16384

noncomputable section

namespace Cert.ReferenceIdeal.Whole

open Idealize.ShloMosaic Idealize.ShloMosaic.TcCoe Idealize.SL.Sem Idealize.ShloMosaic.StableHlo
open Cert.ReferenceIdeal Cert.ReferenceIdeal.Gen Cert.ReferenceIdeal.ValueP

variable (m : (ℓ : Loc nD τ sig) → Buf (Elt Ideal) ℓ) (c : Dev nD)

theorem kept (b : Ref sig .tc)
    (hb : b = main_arg0 ∨ b = main_arg1 ∨ b = main_arg2 ∨ b = main_arg3 ∨ b = main_arg4 ∨ b = main_arg5 ∨ b = main_arg6
      ∨ b = main_arg7 ∨ b = main_arg8 ∨ b = main_arg9) :
    after (ops (F := Ideal)) (launchContents m c) (Proc.devRef .tc b) = m ((c.tc : Thread nD τ).loc b) := by
  rcases hb with rfl | rfl | rfl | rfl | rfl | rfl | rfl | rfl | rfl | rfl <;> (after_results_simp <;> rfl)

/-- A memory that holds, at every buffer, the fold of the operations over the launch contents holds the arguments as launched. -/
theorem kept_of (mem : (ℓ : Loc nD τ sig) → Buf (Elt Ideal) ℓ)
    (h : ∀ (d : Dev nD) (b : Ref sig .tc), mem ((d.tc : Thread nD τ).loc b) = after (ops (F := Ideal)) (launchContents m d) (Proc.devRef .tc b)) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9) :=
  ⟨(h c main_arg0).trans (kept m c main_arg0 (by simp)), (h c main_arg1).trans (kept m c main_arg1 (by simp)),
   (h c main_arg2).trans (kept m c main_arg2 (by simp)), (h c main_arg3).trans (kept m c main_arg3 (by simp)),
   (h c main_arg4).trans (kept m c main_arg4 (by simp)), (h c main_arg5).trans (kept m c main_arg5 (by simp)),
   (h c main_arg6).trans (kept m c main_arg6 (by simp)), (h c main_arg7).trans (kept m c main_arg7 (by simp)),
   (h c main_arg8).trans (kept m c main_arg8 (by simp)), (h c main_arg9).trans (kept m c main_arg9 (by simp))⟩

end Cert.ReferenceIdeal.Whole

end
-- ==== Proof.lean ====
/-
  A two-layer graph network with sum aggregation, a final linear layer over both layers' rows and a row-wise log-softmax:
  the kernel program (two regions, each working on blocks of 2000 consecutive rows, with the neighbour sums taken by host
  operations before each) against the plain whole-array reference, on the extended reals.

  Both programs take the neighbour sum with the same host operations, so it is carried as one function of the node rows and
  the edge table and never opened. What remains is row-local: a convolution `relu (A · Wrel + X · Wroot + b)`, which the
  reference writes with the bias before the root term — equal, since addition on the extended reals is commutative and
  associative —; the last layer, where the reference lays the two layers' rows side by side against the whole weight matrix and
  the kernel multiplies each by its half and adds — a finite sum split in two —; and the log-softmax, where the reference
  joins the row maximum once more with −∞, which changes nothing. No step needs the inputs finite.

  The kernel's blocks are restrictions of these row-local functions to consecutive rows, and the blocks of the fifty grid points
  tile the hundred thousand rows, so each region's result array is the whole-array function of the arrays it found.
-/
import proofs.«146916_j23699629539722_2_alg».proof.Defs
import proofs.«146916_j23699629539722_2_alg».proof.Proof.Gen.Kernel
import proofs.«146916_j23699629539722_2_alg».proof.Proof.Gen.Kernel.Skeleton
import proofs.«146916_j23699629539722_2_alg».proof.Proof.Gen.Kernel.Launch
import proofs.«146916_j23699629539722_2_alg».proof.Proof.Gen.Kernel.Points
import proofs.«146916_j23699629539722_2_alg».proof.Proof.Gen.Kernel.Frame
import proofs.«146916_j23699629539722_2_alg».proof.Proof.Gen.KernelIdeal
import proofs.«146916_j23699629539722_2_alg».proof.Proof.Gen.KernelIdeal.Skeleton
import proofs.«146916_j23699629539722_2_alg».proof.Proof.Gen.KernelIdeal.Launch
import proofs.«146916_j23699629539722_2_alg».proof.Proof.Gen.KernelIdeal.Points
import proofs.«146916_j23699629539722_2_alg».proof.Proof.Gen.KernelIdeal.Frame
import proofs.«146916_j23699629539722_2_alg».proof.Proof.Gen.ReferenceIdeal
import proofs.«146916_j23699629539722_2_alg».proof.Proof.Gen.Pre_finite_inputs
import proofs.«146916_j23699629539722_2_alg».proof.Proof.KernelValue
import proofs.«146916_j23699629539722_2_alg».proof.Proof.RefValue
import proofs.«146916_j23699629539722_2_alg».proof.Proof.RefKept
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and leaves its arguments as launched: none of its operations writes one. -/
theorem frame_ri : Cert.frame_ReferenceIdeal := fun m ρ _ =>
  (θ_run Cert.ReferenceIdeal.defs _ _).mono (fun _ h c => Cert.ReferenceIdeal.Whole.kept_of m c _ h)
    (Cert.ReferenceIdeal.ValueP.run_after (F := Ideal) m ρ)

/-- The two programs' results are one function of the arguments. -/
theorem algebraic : Cert.algebraic_KernelIdeal_ReferenceIdeal := by
  intro m ρ m' ρ' _ hagree
  refine ⟨fun c => Cert.KernelIdeal.Whole.output m c, ?_, ?_⟩
  · exact (θ_run Cert.KernelIdeal.defs _ _).mono
      (fun r h c => ⟨(h c).1.trans (Cert.KernelIdeal.Whole.W4_v30 m ρ c), (h c).2⟩)
      (Cert.KernelIdeal.Named.run_named (F := Ideal) m ρ)
  · refine (θ_run Cert.ReferenceIdeal.defs _ _).mono
      (fun r h c => ⟨(h c Cert.ReferenceIdeal.main_v43).trans ?_, Cert.ReferenceIdeal.Whole.kept_of m' c _ h⟩)
      (Cert.ReferenceIdeal.ValueP.run_after (F := Ideal) m' ρ')
    obtain ⟨e0, e1, e2, e3, e4, e5, e6, e7, e8, e9⟩ := hagree c
    rw [Cert.ReferenceIdeal.Whole.result_eq m' c (Cert.KernelIdeal.Whole.upper m c) (Cert.KernelIdeal.Whole.lower m c)
      (fun k k' q hk => by rw [e8]; exact (Cert.KernelIdeal.Whole.upper_apply m c k k' q hk).symm)
      (fun k k' q hk => by rw [e8]; exact (Cert.KernelIdeal.Whole.lower_apply m c k k' q hk).symm)]
    unfold Cert.ReferenceIdeal.Whole.layer2 Cert.ReferenceIdeal.Whole.layer1 Cert.KernelIdeal.Whole.output Cert.KernelIdeal.Whole.layer1
    rw [e0, e1, e2, e3, e4, e5, e6, e7, e9]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
